-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S2x1200000 32) (main_arg2 : FVec F S1200000 .f32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S64 : Shape := ⟨1, ![64]⟩
abbrev S1x1200000 : Shape := ⟨2, ![1, 1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S5000x64 : Shape := ⟨2, ![5000, 64]⟩
abbrev S1300000x64 : Shape := ⟨2, ![1300000, 64]⟩
abbrev S1x64 : Shape := ⟨2, ![1, 64]⟩

abbrev nBuf : Space → Nat
  | .hbm => 86
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1200000, .i32⟩
  | .hbm, ⟨8, _⟩ => ⟨S1200000, .i32⟩
  | .hbm, ⟨9, _⟩ => ⟨S1x1200000, .i32⟩
  | .hbm, ⟨10, _⟩ => ⟨S1200000, .i32⟩
  | .hbm, ⟨11, _⟩ => ⟨S100000, .i32⟩
  | .hbm, ⟨12, _⟩ => ⟨S1300000, .i32⟩
  | .hbm, ⟨13, _⟩ => ⟨S1300000, .i32⟩
  | .hbm, ⟨14, _⟩ => ⟨S_, .f32⟩
  | .hbm, ⟨15, _⟩ => ⟨S100000, .f32⟩
  | .hbm, ⟨16, _⟩ => ⟨S1300000, .f32⟩
  | .hbm, ⟨17, _⟩ => ⟨S_, .f32⟩
  | .hbm, ⟨18, _⟩ => ⟨S100000, .f32⟩
  | .hbm, ⟨19, _⟩ => ⟨S1300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1300000, .i32⟩
  | .hbm, ⟨31, _⟩ => ⟨S1300000, .i1⟩
  | .hbm, ⟨32, _⟩ => ⟨S_, .i32⟩
  | .hbm, ⟨33, _⟩ => ⟨S1300000, .i32⟩
  | .hbm, ⟨34, _⟩ => ⟨S1300000, .i32⟩
  | .hbm, ⟨35, _⟩ => ⟨S1300000, .i32⟩
  | .hbm, ⟨36, _⟩ => ⟨S1300000x1, .i32⟩
  | .hbm, ⟨37, _⟩ => ⟨S1300000, .f32⟩
  | .hbm, ⟨38, _⟩ => ⟨S1300000, .f32⟩
  | .hbm, ⟨39, _⟩ => ⟨S_, .i32⟩
  | .hbm, ⟨40, _⟩ => ⟨S1300000, .i32⟩
  | .hbm, ⟨41, _⟩ => ⟨S1300000, .i1⟩
  | .hbm, ⟨42, _⟩ => ⟨S_, .i32⟩
  | .hbm, ⟨43, _⟩ => ⟨S1300000, .i32⟩
  | .hbm, ⟨44, _⟩ => ⟨S1300000, .i32⟩
  | .hbm, ⟨45, _⟩ => ⟨S1300000, .i32⟩
  | .hbm, ⟨46, _⟩ => ⟨S1300000x1, .i32⟩
  | .hbm, ⟨47, _⟩ => ⟨S1300000, .f32⟩
  | .hbm, ⟨48, _⟩ => ⟨S1300000, .f32⟩
  | .hbm, ⟨49, _⟩ => ⟨S1300000x1, .f32⟩
  | .hbm, ⟨50, _⟩ => ⟨S100000x64, .f32⟩
  | .hbm, ⟨51, _⟩ => ⟨S_, .i32⟩
  | .hbm, ⟨52, _⟩ => ⟨S1300000, .i32⟩
  | .hbm, ⟨53, _⟩ => ⟨S1300000, .i1⟩
  | .hbm, ⟨54, _⟩ => ⟨S_, .i32⟩
  | .hbm, ⟨55, _⟩ => ⟨S1300000, .i32⟩
  | .hbm, ⟨56, _⟩ => ⟨S1300000, .i32⟩
  | .hbm, ⟨57, _⟩ => ⟨S1300000, .i32⟩
  | .hbm, ⟨58, _⟩ => ⟨S1300000x1, .i32⟩
  | .hbm, ⟨59, _⟩ => ⟨S1300000x64, .f32⟩
  | .hbm, ⟨60, _⟩ => ⟨S1300000x64, .f32⟩
  | .hbm, ⟨61, _⟩ => ⟨S1300000x64, .f32⟩
  | .hbm, ⟨62, _⟩ => ⟨S_, .f32⟩
  | .hbm, ⟨63, _⟩ => ⟨S100000x64, .f32⟩
  | .hbm, ⟨64, _⟩ => ⟨S1300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1300000, .i32⟩
  | .hbm, ⟨71, _⟩ => ⟨S1300000, .i1⟩
  | .hbm, ⟨72, _⟩ => ⟨S_, .i32⟩
  | .hbm, ⟨73, _⟩ => ⟨S1300000, .i32⟩
  | .hbm, ⟨74, _⟩ => ⟨S1300000, .i32⟩
  | .hbm, ⟨75, _⟩ => ⟨S1300000, .i32⟩
  | .hbm, ⟨76, _⟩ => ⟨S1300000x1, .i32⟩
  | .hbm, ⟨77, _⟩ => ⟨S1300000x64, .f32⟩
  | .hbm, ⟨78, _⟩ => ⟨S1300000x64, .f32⟩
  | .hbm, ⟨79, _⟩ => ⟨S1300000x64, .f32⟩
  | .hbm, ⟨80, _⟩ => ⟨S_, .f32⟩
  | .hbm, ⟨81, _⟩ => ⟨S100000x64, .f32⟩
  | .hbm, ⟨82, _⟩ => ⟨S1300000x1, .i32⟩
  | .hbm, ⟨83, _⟩ => ⟨S100000x64, .f32⟩
  | .hbm, ⟨84, _⟩ => ⟨S1x64, .f32⟩
  | .hbm, ⟨85, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S100000 : S_.BroadcastsInDim S100000 (![] : Fin 0 → Fin S100000.rank)
  bcast_S1300000_S1300000x1_0 : S1300000.BroadcastsInDim S1300000x1 (![0] : Fin 1 → Fin S1300000x1.rank)
  bcast_S_S1300000 : S_.BroadcastsInDim S1300000 (![] : Fin 0 → Fin S1300000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S5000x64_S64x64_S5000x64_1_0_0_1_n_n_wf : DotDims.WF S5000x64 S64x64 S5000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000 : Shape := ⟨1, ![1200000]⟩
abbrev S64x64 : Shape := ⟨2, ![64, 64]⟩
abbrev S64 : Shape := ⟨1, ![64]⟩
abbrev S1x1200000 : Shape := ⟨2, ![1, 1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 137
  | .vmem => 0
  | .smem => 0
  | _ => 0

abbrev hbmTy0_0 (i : Nat) : BufTy := match i % 128 with
  | 0 => ⟨S100000x64, .f32⟩
  | 1 => ⟨S2x1200000, .i32⟩
  | 2 => ⟨S1200000, .f32⟩
  | 3 => ⟨S64x64, .f32⟩
  | 4 => ⟨S64, .f32⟩
  | 5 => ⟨S64x64, .f32⟩
  | 6 => ⟨S64, .f32⟩
  | 7 => ⟨S1x1200000, .i32⟩
  | 8 => ⟨S1200000, .i32⟩
  | 9 => ⟨S1x1200000, .i32⟩
  | 10 => ⟨S1200000, .i32⟩
  | 11 => ⟨S100000, .i32⟩
  | 12 => ⟨S1300000, .i32⟩
  | 13 => ⟨S1300000, .i32⟩
  | 14 => ⟨S_, .f32⟩
  | 15 => ⟨S100000, .f32⟩
  | 16 => ⟨S1300000, .f32⟩
  | 17 => ⟨S_, .f32⟩
  | 18 => ⟨S100000, .f32⟩
  | 19 => ⟨S1300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1300000, .i32⟩
  | 31 => ⟨S1300000, .i1⟩
  | 32 => ⟨S_, .i32⟩
  | 33 => ⟨S1300000, .i32⟩
  | 34 => ⟨S1300000, .i32⟩
  | 35 => ⟨S1300000, .i32⟩
  | 36 => ⟨S1300000x1, .i32⟩
  | 37 => ⟨S1300000, .f32⟩
  | 38 => ⟨S1300000, .f32⟩
  | 39 => ⟨S_, .i32⟩
  | 40 => ⟨S1300000, .i32⟩
  | 41 => ⟨S1300000, .i1⟩
  | 42 => ⟨S_, .i32⟩
  | 43 => ⟨S1300000, .i32⟩
  | 44 => ⟨S1300000, .i32⟩
  | 45 => ⟨S1300000, .i32⟩
  | 46 => ⟨S1300000x1, .i32⟩
  | 47 => ⟨S1300000, .f32⟩
  | 48 => ⟨S1300000, .f32⟩
  | 49 => ⟨S100000x64, .f32⟩
  | 50 => ⟨S1300000x1, .f32⟩
  | 51 => ⟨S_, .i32⟩
  | 52 => ⟨S1300000, .i32⟩
  | 53 => ⟨S1300000, .i1⟩
  | 54 => ⟨S_, .i32⟩
  | 55 => ⟨S1300000, .i32⟩
  | 56 => ⟨S1300000, .i32⟩
  | 57 => ⟨S1300000, .i32⟩
  | 58 => ⟨S1300000x1, .i32⟩
  | 59 => ⟨S1300000x64, .f32⟩
  | 60 => ⟨S1300000x64, .f32⟩
  | 61 => ⟨S1300000x64, .f32⟩
  | 62 => ⟨S_, .f32⟩
  | 63 => ⟨S100000x64, .f32⟩
  | 64 => ⟨S1300000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000, .i32⟩
  | 73 => ⟨S1300000, .i32⟩
  | 74 => ⟨S1300000, .i32⟩
  | 75 => ⟨S_, .f32⟩
  | 76 => ⟨S100000, .f32⟩
  | 77 => ⟨S1300000, .f32⟩
  | 78 => ⟨S_, .f32⟩
  | 79 => ⟨S100000, .f32⟩
  | 80 => ⟨S1300000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1300000, .i32⟩
  | 92 => ⟨S1300000, .i1⟩
  | 93 => ⟨S_, .i32⟩
  | 94 => ⟨S1300000, .i32⟩
  | 95 => ⟨S1300000, .i32⟩
  | 96 => ⟨S1300000, .i32⟩
  | 97 => ⟨S1300000x1, .i32⟩
  | 98 => ⟨S1300000, .f32⟩
  | 99 => ⟨S1300000, .f32⟩
  | 100 => ⟨S_, .i32⟩
  | 101 => ⟨S1300000, .i32⟩
  | 102 => ⟨S1300000, .i1⟩
  | 103 => ⟨S_, .i32⟩
  | 104 => ⟨S1300000, .i32⟩
  | 105 => ⟨S1300000, .i32⟩
  | 106 => ⟨S1300000, .i32⟩
  | 107 => ⟨S1300000x1, .i32⟩
  | 108 => ⟨S1300000, .f32⟩
  | 109 => ⟨S1300000, .f32⟩
  | 110 => ⟨S100000x64, .f32⟩
  | 111 => ⟨S1300000x1, .f32⟩
  | 112 => ⟨S_, .i32⟩
  | 113 => ⟨S1300000, .i32⟩
  | 114 => ⟨S1300000, .i1⟩
  | 115 => ⟨S_, .i32⟩
  | 116 => ⟨S1300000, .i32⟩
  | 117 => ⟨S1300000, .i32⟩
  | 118 => ⟨S1300000, .i32⟩
  | 119 => ⟨S1300000x1, .i32⟩
  | 120 => ⟨S1300000x64, .f32⟩
  | 121 => ⟨S1300000x64, .f32⟩
  | 122 => ⟨S1300000x64, .f32⟩
  | 123 => ⟨S_, .f32⟩
  | 124 => ⟨S100000x64, .f32⟩
  | 125 => ⟨S1300000x1, .i32⟩
  | 126 => ⟨S100000x64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S100000x64, .f32⟩
  | 6 => ⟨S_, .f32⟩
  | 7 => ⟨S100000x64, .f32⟩
  | 8 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call3_cst : Ref sig .tc := ⟨.hbm, 130, rfl⟩
abbrev main_call3_v0 : Ref sig .tc := ⟨.hbm, 131, rfl⟩
abbrev main_v95 : Ref sig .tc := ⟨.hbm, 132, rfl⟩
abbrev main_v96 : Ref sig .tc := ⟨.hbm, 133, rfl⟩
abbrev main_cst_20 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S100000 : S_.BroadcastsInDim S100000 (![] : Fin 0 → Fin S100000.rank)
  bcast_S1300000_S1300000x1_0 : S1300000.BroadcastsInDim S1300000x1 (![0] : Fin 1 → Fin S1300000x1.rank)
  bcast_S_S1300000 : S_.BroadcastsInDim S1300000 (![] : Fin 0 → Fin S1300000.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.KernelRun.lean ====
/-
  The idealized kernel's run with its RESULT named.  @main is nine segments — three stretches of host operations, the
  first matrix product, a stretch (gather, scale, scatter-add, the bias reshaped), the bias-and-clamp call, the second
  matrix product, another such stretch, and the final averaging call — and the generated frame already follows the
  TensorCore's buffer contents through them: `W0` at launch, … , `W9` at the return.  Every weakly fair execution
  terminates, nothing faults, and EVERY unscoped buffer ends at `W9`; the generated frame keeps of this only the seven
  arguments.  Here the same launch is read at the result buffer too: it ends holding `W9` there.  What `W9` holds at the
  result, as a function of the arguments, is the next module's business.
-/
import proofs.«176561_j5025111736960_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents `W9`, and the seven arguments end as launched. -/
theorem run : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.RunValue

end
-- ==== Proof.Rounds.lean ====
/-
  One round of message passing over the graph, as the host computes it between two Pallas calls, as ONE function of
  the node features `h`, the two index arrays (sources `s` and destinations `d` of the 1200000 edges followed by the
  100000 self-loops) and the per-edge normalisation `nrm` (a column): a source index below zero is moved up by the
  number of nodes, the features' rows are gathered at the sources, each gathered row is scaled by its edge's
  normalisation, and the scaled rows are added into a zero array at the destinations.  Both programs apply exactly these
  operations, so the function is never opened: it only has to be the SAME term on both sides.  Here also the one-row
  form `[1, 64]` of a bias vector, which the kernel's host code makes by a reshape.
-/
import proofs.«176561_j5025111736960_1_alg».proof.Proof.Gen.KernelIdeal

noncomputable section

namespace Cert.KernelIdeal.Rounds

open Cert.KernelIdeal Cert.KernelIdeal.Facts₀ Idealize.ShloMosaic

variable {F : FTy → Type} [FloatOps F]

/-- Gather at the (wrapped) sources, scale by the edge normalisation, scatter-add at the destinations. -/
def aggregate (h : (⟨S100000x64, .f32⟩ : BufTy).Contents (Elt F)) (s d : (⟨S1300000, .i32⟩ : BufTy).Contents (Elt F))
    (nrm : (⟨S1300000x1, .f32⟩ : BufTy).Contents (Elt F)) : (⟨S100000x64, .f32⟩ : BufTy).Contents (Elt F) :=
  Host.scatterAdd scatter_S100000x64_S1300000x1_S1300000x64_1_0_0_1
    (broadcastInDim S100000x64 ![] bcast_S_S100000x64 (constant S_ .f32 0x00000000#32))
    (broadcastInDim S1300000x1 ![0] bcast_S1300000_S1300000x1_0 d)
    (mulf (broadcastInDim S1300000x64 ![0, 1] bcast_S1300000x1_S1300000x64_0_1 nrm)
      (Host.gather gather_S100000x64_S1300000x1_S1300000x64_1_0_n_n_0_1_164 h
        (broadcastInDim S1300000x1 ![0] bcast_S1300000_S1300000x1_0
          (select (cmpi .slt s (broadcastInDim S1300000 ![] bcast_S_S1300000 (constantI S_ 32 0#32)))
            (addi s (broadcastInDim S1300000 ![] bcast_S_S1300000 (constantI S_ 32 100000#32))) s))))

/-- A bias vector `[64]` as one row `[1, 64]`. -/
def asRow (b : (⟨S64, .f32⟩ : BufTy).Contents (Elt F)) : (⟨S1x64, .f32⟩ : BufTy).Contents (Elt F) :=
  shapeCast S1x64 b shapeCasts_S64_S1x64

end Cert.KernelIdeal.Rounds

end
-- ==== Proof.RowsTimes.lean ====
/-
  The two matrix-product Pallas calls (the first and the third), each as ONE function of the arrays it finds, at the
  ideal instance.  Point `t` of the 20-point grid stages rows `5000·t … 5000·t + 4999` of the left operand
  `[100000, 64]`, the whole right operand `[64, 64]`, and writes the same rows of the result.  The body narrows both
  blocks to bf16 — the identity on extended reals — and multiplies them into a zero accumulator, so entry `(p, q)` of
  the stored block is `∑ k, x[p, k] · w[k, q]`.  Read through the blocks, entry `(r, q)` of the result array is
  `∑ k, X[r, k] · W[k, q]`: every block restricts one whole-array product, and the twenty row ranges tile the rows.
  Stated for any contents `V` of the TensorCore's buffers at the call's entry.
-/
import proofs.«176561_j5025111736960_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RowsTimes

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The sum over the 64 contracted positions of the products of two families of extended reals. -/
def pairSum (f g : Fin 64 → EReal) : EReal := ∑ k : Fin 64, f k * g k

/-- The product of a `[100000, 64]` array with a `[64, 64]` one, entry by entry, on the extended reals. -/
def rowsTimes (x : S100000x64.Idx → EReal) (w : S64x64.Idx → EReal) : S100000x64.Idx → EReal :=
  fun i => pairSum (fun k => x (ix2 (⟨(i 0).val, (i 0).isLt⟩ : Fin 100000) k)) (fun k => w (ix2 k (⟨(i 1).val, (i 1).isLt⟩ : Fin 64)))

/-- The block product's operand coordinates at output entry `j` and contraction index `q`: `(j₀, q)` and `(q, j₁)`. -/
theorem lhs_0 (j : S5000x64.Idx) (q : dot_S5000x64_S64x64_S5000x64_1_0_0_1_n_n.contr.Idx) : (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (j : S5000x64.Idx) (q : dot_S5000x64_S64x64_S5000x64_1_0_0_1_n_n.contr.Idx) : (dot_S5000x64_S64x64_S5000x64_1_0_0_1_n_n.lhsIdx j q 1).val = (q ⟨0, by decide⟩).val :=
  dot_S5000x64_S64x64_S5000x64_1_0_0_1_n_n.lhsIdx_val_of_single rfl j q
theorem rhs_0 (j : S5000x64.Idx) (q : dot_S5000x64_S64x64_S5000x64_1_0_0_1_n_n.contr.Idx) : (dot_S5000x64_S64x64_S5000x64_1_0_0_1_n_n.rhsIdx j q 0).val = (q ⟨0, by decide⟩).val :=
  dot_S5000x64_S64x64_S5000x64_1_0_0_1_n_n.rhsIdx_val_of_single rfl j q
theorem rhs_1 (j : S5000x64.Idx) (q : dot_S5000x64_S64x64_S5000x64_1_0_0_1_n_n.contr.Idx) : (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block times the right operand into the zero accumulator, at entry `j`: the sum over the 64 contracted positions. -/
theorem blockProduct_apply (x0 : FVec Ideal S5000x64 .f32) (x1 : FVec Ideal S64x64 .f32) (j : S5000x64.Idx) :
    FloatOps.matmul (F := Ideal) dot_S5000x64_S64x64_S5000x64_1_0_0_1_n_n none x0 x1 (constant (F := Ideal) S5000x64 .f32 0x00000000#32) j
      = pairSum (fun k => x0 (ix2 (⟨(j 0).val, (j 0).isLt⟩ : Fin 5000) k)) (fun k => x1 (ix2 k (⟨(j 1).val, (j 1).isLt⟩ : Fin 64))) := by
  unfold pairSum
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = ix2 (⟨(j 0).val, (j 0).isLt⟩ : Fin 5000) k := funext fun a => Fin.ext (by
    match a with
    | ⟨0, _⟩ => exact lhs_0 _ _
    | ⟨1, _⟩ => exact (lhs_1 _ _).trans hk)
  have er : dot_S5000x64_S64x64_S5000x64_1_0_0_1_n_n.rhsIdx j ((ValueIdx.contrEquiv1 dot_S5000x64_S64x64_S5000x64_1_0_0_1_n_n 64 rfl rfl).symm k) = ix2 k (⟨(j 1).val, (j 1).isLt⟩ : Fin 64) := funext fun a => Fin.ext (by
    match a with
    | ⟨0, _⟩ => exact (rhs_0 _ _).trans hk
    | ⟨1, _⟩ => exact rhs_1 _ _)
  rw [el, er]

/-- The first call's stored value at entry `j` of a block (the narrowing to bf16 is the identity here). -/
theorem pay0_apply (x0 : Vec Ideal S5000x64 .f32) (x1 : Vec Ideal S64x64 .f32) (j : S5000x64.Idx) :
    k0_pay1 (F := Ideal) x0 x1 j
      = pairSum (fun k => x0 (ix2 (⟨(j 0).val, (j 0).isLt⟩ : Fin 5000) k)) (fun k => x1 (ix2 k (⟨(j 1).val, (j 1).isLt⟩ : Fin 64))) :=
  blockProduct_apply x0 x1 j

/-- The third call's stored value at entry `j` of a block (a cast to the same shape, then as the first). -/
theorem pay2_apply (x0 : Vec Ideal S5000x64 .f32) (x1 : Vec Ideal S64x64 .f32) (j : S5000x64.Idx) :
    k2_pay1 (F := Ideal) x0 x1 j
      = pairSum (fun k => x0 (ix2 (⟨(j 0).val, (j 0).isLt⟩ : Fin 5000) k)) (fun k => x1 (ix2 k (⟨(j 1).val, (j 1).isLt⟩ : Fin 64))) := by
  have e : k2_pay1 (F := Ideal) x0 x1 = k0_pay1 (F := Ideal) (shapeCast S5000x64 x0 shapeCasts_S5000x64_S5000x64) x1 := rfl
  rw [e, shapeCast_self]
  exact blockProduct_apply x0 x1 j

namespace First

/-- The printed index maps over the grid: the left operand's block and the result's block move together, one block of
    5000 rows per point; the 64 × 64 right operand is staged whole and never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the two arrays as the call finds them. -/
theorem flushed_eq (c : Dev nD) (t : Fin cfg0.N) :
    (dat0 V c).flushed 2 t = ((cfg0.win 2).blk t).view.read (Elt Ideal) (rowsTimes (V c main_arg0) (V c main_arg3)) := by
  show (cfg0.win 2).cut (grid0.coords t) ((dat0 V c).after 2 t) = _
  rw [after0_2]
  unfold out0_2
  rw [View.canon_unit_zero origin2]
  simp only [View.ld_unit_zero (S := S5000x64) origin2, View.ld_unit_zero (S := S64x64) origin2]
  obtain ⟨e0, e1, e2, e3, e4, e5⟩ := idx_facts t
  funext j
  show k0_pay1 (iblk0 V c 0 t) (iblk0 V c 1 t) j = rowsTimes (V c main_arg0) (V c main_arg3) (((cfg0.win 2).blk t).view.emb j)
  refine (pay0_apply _ _ j).trans ?_
  show pairSum (fun k => V c main_arg0 (((cfg0.win 0).blk t).view.emb (ix2 (⟨(j 0).val, (j 0).isLt⟩ : Fin 5000) k)))
        (fun k => V c main_arg3 (((cfg0.win 1).blk t).view.emb (ix2 k (⟨(j 1).val, (j 1).isLt⟩ : Fin 64))))
    = pairSum (fun k => V c main_arg0 (ix2 (⟨((((cfg0.win 2).blk t).view.emb j) 0).val, ((((cfg0.win 2).blk t).view.emb j) 0).isLt⟩ : Fin 100000) k))
        (fun k => V c main_arg3 (ix2 k (⟨((((cfg0.win 2).blk t).view.emb j) 1).val, ((((cfg0.win 2).blk t).view.emb j) 1).isLt⟩ : Fin 64)))
  refine congrArg₂ pairSum (funext fun k => congrArg (V c main_arg0) ?_) (funext fun k => congrArg (V c main_arg3) ?_)
  · funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  · funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v33).slice (win0_2.rect t)).set ↔ _
  rw [View.set_slice_whole, Rect.mem_set_unit]
  exact Iff.rfl

/-- Every row lies in the block of the point `row / 5000`: the twenty blocks tile the array. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  refine ⟨⟨(i 0).val / 5000, by show (i 0).val / 5000 < 20; omega⟩, flush0_2 _, ?_⟩
  rw [mem_blk]
  obtain ⟨e0, e1, e2, e3, e4, e5⟩ := idx_facts ⟨(i 0).val / 5000, by show (i 0).val / 5000 < 20; omega⟩
  have e4' : win0_2.index ⟨(i 0).val / 5000, by show (i 0).val / 5000 < 20; omega⟩ (0 : Fin 2) = (i 0).val / 5000 := e4
  intro a
  match a with
  | ⟨0, _⟩ => show win0_2.index _ (0 : Fin 2) * 5000 ≤ (i 0).val ∧ (i 0).val < win0_2.index _ (0 : Fin 2) * 5000 + 5000; omega
  | ⟨1, _⟩ => show win0_2.index _ (1 : Fin 2) * 64 ≤ (i 1).val ∧ (i 1).val < win0_2.index _ (1 : Fin 2) * 64 + 64; omega

/-- THE RESULT ARRAY after the call: the whole product of the two arrays as the call finds them. -/
theorem final (c : Dev nD) : (dat0 V c).arrAt 2 cfg0.N = rowsTimes (V c main_arg0) (V c main_arg3) :=
  (dat0 V c).arrAt_eq_of_cover 2 (rowsTimes (V c main_arg0) (V c main_arg3)) (fun t _ => flushed_eq V c t) cover

end First

namespace Second

/-- The printed index maps over the grid: the left operand's block and the result's block move together, one block of
    5000 rows per point; the 64 × 64 right operand is staged whole and never moves. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the two arrays as the call finds them. -/
theorem flushed_eq (c : Dev nD) (t : Fin cfg2.N) :
    (dat2 V c).flushed 2 t = ((cfg2.win 2).blk t).view.read (Elt Ideal) (rowsTimes (V c main_v47) (V c main_arg5)) := by
  show (cfg2.win 2).cut (grid2.coords t) ((dat2 V c).after 2 t) = _
  rw [after2_2]
  unfold out2_2
  rw [View.canon_unit_zero origin2]
  simp only [View.ld_unit_zero (S := S5000x64) origin2, View.ld_unit_zero (S := S64x64) origin2]
  obtain ⟨e0, e1, e2, e3, e4, e5⟩ := idx_facts t
  funext j
  show k2_pay1 (iblk2 V c 0 t) (iblk2 V c 1 t) j = rowsTimes (V c main_v47) (V c main_arg5) (((cfg2.win 2).blk t).view.emb j)
  refine (pay2_apply _ _ j).trans ?_
  show pairSum (fun k => V c main_v47 (((cfg2.win 0).blk t).view.emb (ix2 (⟨(j 0).val, (j 0).isLt⟩ : Fin 5000) k)))
        (fun k => V c main_arg5 (((cfg2.win 1).blk t).view.emb (ix2 k (⟨(j 1).val, (j 1).isLt⟩ : Fin 64))))
    = pairSum (fun k => V c main_v47 (ix2 (⟨((((cfg2.win 2).blk t).view.emb j) 0).val, ((((cfg2.win 2).blk t).view.emb j) 0).isLt⟩ : Fin 100000) k))
        (fun k => V c main_arg5 (ix2 k (⟨((((cfg2.win 2).blk t).view.emb j) 1).val, ((((cfg2.win 2).blk t).view.emb j) 1).isLt⟩ : Fin 64)))
  refine congrArg₂ pairSum (funext fun k => congrArg (V c main_v47) ?_) (funext fun k => congrArg (V c main_arg5) ?_)
  · funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  · funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega

/-- An index of the result array is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- Every row lies in the block of the point `row / 5000`: the twenty blocks tile the array. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  refine ⟨⟨(i 0).val / 5000, by show (i 0).val / 5000 < 20; omega⟩, flush2_2 _, ?_⟩
  rw [mem_blk]
  obtain ⟨e0, e1, e2, e3, e4, e5⟩ := idx_facts ⟨(i 0).val / 5000, by show (i 0).val / 5000 < 20; omega⟩
  have e4' : win2_2.index ⟨(i 0).val / 5000, by show (i 0).val / 5000 < 20; omega⟩ (0 : Fin 2) = (i 0).val / 5000 := e4
  intro a
  match a with
  | ⟨0, _⟩ => show win2_2.index _ (0 : Fin 2) * 5000 ≤ (i 0).val ∧ (i 0).val < win2_2.index _ (0 : Fin 2) * 5000 + 5000; omega
  | ⟨1, _⟩ => show win2_2.index _ (1 : Fin 2) * 64 ≤ (i 1).val ∧ (i 1).val < win2_2.index _ (1 : Fin 2) * 64 + 64; omega

/-- THE RESULT ARRAY after the call: the whole product of the two arrays as the call finds them. -/
theorem final (c : Dev nD) : (dat2 V c).arrAt 2 cfg2.N = rowsTimes (V c main_v47) (V c main_arg5) :=
  (dat2 V c).arrAt_eq_of_cover 2 (rowsTimes (V c main_v47) (V c main_arg5)) (fun t _ => flushed_eq V c t) cover

end Second

end Cert.KernelIdeal.RowsTimes

end
-- ==== Proof.BiasRelu.lean ====
/-
  The second Pallas call (a row bias added, then a clamp at zero), as ONE function of the arrays it finds.
  Its grid has 20 points; point `t` stages rows `5000·t … 5000·t + 4999` of the aggregated features (all 64
  columns), the one-row bias `[1, 64]` whole, and writes rows `5000·t …` of its result.  The body adds the bias row to
  every row of the block and takes the maximum with zero, entry by entry.  So entry `(r, q)` of the result depends
  only on entry `(r, q)` of the features and entry `(0, q)` of the bias: the blocks are restrictions of one
  whole-array function, and since the twenty row ranges tile the 100000 rows the result array IS that function.
  Stated for any contents `V` of the TensorCore's buffers at the call's entry, and for any float instance.
-/
import proofs.«176561_j5025111736960_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.BiasRelu

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

theorem origin2 : (![0, 0] : Fin 2 → Nat) = fun _ => 0 := funext fun a => by fin_cases a <;> rfl

/-- `max (a + b, 0)` with the one-row `b` read at the entry's column: the call's result as a function of its two arrays. -/
def rowBiasRelu (a : S100000x64.Idx → Elt F .f32) (b : S1x64.Idx → Elt F .f32) : S100000x64.Idx → Elt F .f32 :=
  fun i => FloatOps.maximumf (FloatOps.addf (a i) (b (ix2 (0 : Fin 1) (⟨(i 1).val, (i 1).isLt⟩ : Fin 64))))
    (Scalar.ofBits .f32 0x00000000#32)

/-- The body's stored value at entry `j` of a block: the features' entry plus the bias row's entry of the same column,
    clamped at zero. -/
theorem pay_apply (x0 : Vec F S5000x64 .f32) (x1 : Vec F S1x64 .f32) (j : S5000x64.Idx) :
    k1_pay1 x0 x1 j = FloatOps.maximumf (FloatOps.addf (x0 j) (x1 (ix2 (0 : Fin 1) (⟨(j 1).val, (j 1).isLt⟩ : Fin 64))))
      (Scalar.ofBits .f32 0x00000000#32) := by
  obtain ⟨p, q, rfl⟩ : ∃ (p : Fin 5000) (q : Fin 64), j = ix2 p q := ⟨j 0, j 1, eq_ix2 j⟩
  unfold k1_pay1
  show FloatOps.maximumf (FloatOps.addf (shapeCast S5000x64 x0 _ (ix2 p q)) (broadcastTo S5000x64 (shapeCast S1x64 x1 _) _ (ix2 p q))) _ = _
  rw [shapeCast_self, shapeCast_self, broadcastTo_1b_ab_apply]
  rfl

/-- The printed index maps over the grid: the features' block and the result's block move together, one block of
    5000 rows per point; the bias block never moves. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `rowBiasRelu` of the two arrays as the call finds them. -/
theorem flushed_eq (c : Dev nD) (t : Fin cfg1.N) :
    (dat1 V c).flushed 2 t = ((cfg1.win 2).blk t).view.read (Elt F) (rowBiasRelu (V c main_v45) (V c main_v46)) := by
  show (cfg1.win 2).cut (grid1.coords t) ((dat1 V c).after 2 t) = _
  rw [after1_2]
  unfold out1_2
  rw [View.canon_unit_zero origin2]
  simp only [View.ld_unit_zero (S := S5000x64) origin2, View.ld_unit_zero (S := S1x64) origin2]
  obtain ⟨e0, e1, e2, e3, e4, e5⟩ := idx_facts t
  funext j
  show k1_pay1 (iblk1 V c 0 t) (iblk1 V c 1 t) j = rowBiasRelu (V c main_v45) (V c main_v46) (((cfg1.win 2).blk t).view.emb j)
  refine (pay_apply _ _ j).trans ?_
  show FloatOps.maximumf (FloatOps.addf (V c main_v45 (((cfg1.win 0).blk t).view.emb j))
      (V c main_v46 (((cfg1.win 1).blk t).view.emb (ix2 (0 : Fin 1) (⟨(j 1).val, (j 1).isLt⟩ : Fin 64))))) _
    = FloatOps.maximumf (FloatOps.addf (V c main_v45 (((cfg1.win 2).blk t).view.emb j))
      (V c main_v46 (ix2 (0 : Fin 1) (⟨((((cfg1.win 2).blk t).view.emb j) 1).val, ((((cfg1.win 2).blk t).view.emb j) 1).isLt⟩ : Fin 64)))) _
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (0 : Fin 1) (⟨(j 1).val, (j 1).isLt⟩ : Fin 64))
      = ix2 (0 : Fin 1) (⟨((((cfg1.win 2).blk t).view.emb j) 1).val, ((((cfg1.win 2).blk t).view.emb j) 1).isLt⟩ : Fin 64) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]

/-- An index of the result array is in point `t`'s block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- Every row lies in the block of the point `row / 5000`: the twenty blocks tile the array. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  refine ⟨⟨(i 0).val / 5000, by show (i 0).val / 5000 < 20; omega⟩, flush1_2 _, ?_⟩
  rw [mem_blk]
  obtain ⟨e0, e1, e2, e3, e4, e5⟩ := idx_facts ⟨(i 0).val / 5000, by show (i 0).val / 5000 < 20; omega⟩
  have e4' : win1_2.index ⟨(i 0).val / 5000, by show (i 0).val / 5000 < 20; omega⟩ (0 : Fin 2) = (i 0).val / 5000 := e4
  intro a
  match a with
  | ⟨0, _⟩ => show win1_2.index _ (0 : Fin 2) * 5000 ≤ (i 0).val ∧ (i 0).val < win1_2.index _ (0 : Fin 2) * 5000 + 5000; omega
  | ⟨1, _⟩ => show win1_2.index _ (1 : Fin 2) * 64 ≤ (i 1).val ∧ (i 1).val < win1_2.index _ (1 : Fin 2) * 64 + 64; omega

/-- THE RESULT ARRAY after the call: `rowBiasRelu` of the aggregated features and the bias row as the call finds them. -/
theorem final (c : Dev nD) : (dat1 V c).arrAt 2 cfg1.N = rowBiasRelu (V c main_v45) (V c main_v46) :=
  (dat1 V c).arrAt_eq_of_cover 2 (rowBiasRelu (V c main_v45) (V c main_v46)) (fun t _ => flushed_eq V c t) cover

end Cert.KernelIdeal.BiasRelu

end
-- ==== Proof.Finalize.lean ====
/-
  The last Pallas call (the second layer's bias and clamp, then the average with the first layer's output), as ONE
  function of the arrays it finds.  Point `t` of its 20-point grid stages rows `5000·t … 5000·t + 4999` of the second
  layer's aggregated features and of the first layer's output, the one-row bias whole, and writes the same rows of the
  result.  Entry `(r, q)` of what it stores is `(x1[r, q] + max (agg[r, q] + b[0, q], 0)) · ½`: it depends on the
  same entry of the two big arrays and on the bias row's entry of the same column, so every block is a restriction of
  one whole-array function, and the twenty row ranges tile the 100000 rows.
  Stated for any contents `V` of the TensorCore's buffers at the call's entry, and for any float instance.
-/
import proofs.«176561_j5025111736960_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.Finalize

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

theorem origin2 : (![0, 0] : Fin 2 → Nat) = fun _ => 0 := funext fun a => by fin_cases a <;> rfl

/-- `(x + max (a + b, 0)) · ½` with the one-row `b` read at the entry's column: the call's result as a function of its
    three arrays. -/
def halfSum (a : S100000x64.Idx → Elt F .f32) (b : S1x64.Idx → Elt F .f32) (x : S100000x64.Idx → Elt F .f32) :
    S100000x64.Idx → Elt F .f32 :=
  fun i => FloatOps.mulf (FloatOps.addf (x i)
      (FloatOps.maximumf (FloatOps.addf (a i) (b (ix2 (0 : Fin 1) (⟨(i 1).val, (i 1).isLt⟩ : Fin 64))))
        (Scalar.ofBits .f32 0x00000000#32)))
    (Scalar.ofBits .f32 0x3F000000#32)

/-- The body's stored value at entry `j` of a block. -/
theorem pay_apply (x0 : Vec F S5000x64 .f32) (x1 : Vec F S1x64 .f32) (x2 : Vec F S5000x64 .f32) (j : S5000x64.Idx) :
    k3_pay1 x0 x1 x2 j = FloatOps.mulf (FloatOps.addf (x2 j)
        (FloatOps.maximumf (FloatOps.addf (x0 j) (x1 (ix2 (0 : Fin 1) (⟨(j 1).val, (j 1).isLt⟩ : Fin 64))))
          (Scalar.ofBits .f32 0x00000000#32)))
      (Scalar.ofBits .f32 0x3F000000#32) := by
  obtain ⟨p, q, rfl⟩ : ∃ (p : Fin 5000) (q : Fin 64), j = ix2 p q := ⟨j 0, j 1, eq_ix2 j⟩
  unfold k3_pay1
  show FloatOps.mulf (FloatOps.addf (shapeCast S5000x64 x2 _ (ix2 p q))
      (FloatOps.maximumf (FloatOps.addf (shapeCast S5000x64 x0 _ (ix2 p q)) (broadcastTo S5000x64 (shapeCast S1x64 x1 _) _ (ix2 p q))) _)) _ = _
  rw [shapeCast_self, shapeCast_self, shapeCast_self, broadcastTo_1b_ab_apply]
  rfl

/-- The printed index maps over the grid: the two big inputs' blocks and the result's block move together, one block
    of 5000 rows per point; the bias block never moves. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point `t` writes back is block `t` of `halfSum` of the three arrays as the call finds them. -/
theorem flushed_eq (c : Dev nD) (t : Fin cfg3.N) :
    (dat3 V c).flushed 3 t = ((cfg3.win 3).blk t).view.read (Elt F) (halfSum (V c main_v60) (V c main_v61) (V c main_v47)) := by
  show (cfg3.win 3).cut (grid3.coords t) ((dat3 V c).after 3 t) = _
  rw [after3_3]
  unfold out3_3
  rw [View.canon_unit_zero origin2]
  simp only [View.ld_unit_zero (S := S5000x64) origin2, View.ld_unit_zero (S := S1x64) origin2]
  obtain ⟨e0, e1, e2, e3, e4, e5, e6, e7⟩ := idx_facts t
  funext j
  show k3_pay1 (iblk3 V c 0 t) (iblk3 V c 1 t) (iblk3 V c 2 t) j
    = halfSum (V c main_v60) (V c main_v61) (V c main_v47) (((cfg3.win 3).blk t).view.emb j)
  refine (pay_apply _ _ _ j).trans ?_
  show FloatOps.mulf (FloatOps.addf (V c main_v47 (((cfg3.win 2).blk t).view.emb j))
      (FloatOps.maximumf (FloatOps.addf (V c main_v60 (((cfg3.win 0).blk t).view.emb j))
        (V c main_v61 (((cfg3.win 1).blk t).view.emb (ix2 (0 : Fin 1) (⟨(j 1).val, (j 1).isLt⟩ : Fin 64))))) _)) _
    = FloatOps.mulf (FloatOps.addf (V c main_v47 (((cfg3.win 3).blk t).view.emb j))
      (FloatOps.maximumf (FloatOps.addf (V c main_v60 (((cfg3.win 3).blk t).view.emb j))
        (V c main_v61 (ix2 (0 : Fin 1) (⟨((((cfg3.win 3).blk t).view.emb j) 1).val, ((((cfg3.win 3).blk t).view.emb j) 1).isLt⟩ : Fin 64)))) _)) _
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * (j 1).val = win3_3.index t (1 : Fin 2) * 64 + 1 * (j 1).val; omega
  have h2 : ((cfg3.win 2).blk t).view.emb j = ((cfg3.win 3).blk t).view.emb j := by
    funext a; apply Fin.ext
    match a with
    | ⟨0, _⟩ => show win3_2.index t (0 : Fin 2) * 5000 + 1 * (j 0).val = win3_3.index t (0 : Fin 2) * 5000 + 1 * (j 0).val; omega
    | ⟨1, _⟩ => show win3_2.index t (1 : Fin 2) * 64 + 1 * (j 1).val = win3_3.index t (1 : Fin 2) * 64 + 1 * (j 1).val; omega
  have h1 : ((cfg3.win 1).blk t).view.emb (ix2 (0 : Fin 1) (⟨(j 1).val, (j 1).isLt⟩ : Fin 64))
      = ix2 (0 : Fin 1) (⟨((((cfg3.win 3).blk t).view.emb j) 1).val, ((((cfg3.win 3).blk t).view.emb j) 1).isLt⟩ : Fin 64) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_3.index t (1 : Fin 2) * 64 + 1 * (j 1).val; omega
  rw [h0, h1, h2]

/-- An index of the result array is in point `t`'s block iff each coordinate is in the block's range on its axis. -/
theorem mem_blk (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v62).slice (win3_3.rect t)).set ↔ _
  rw [View.set_slice_whole, Rect.mem_set_unit]
  exact Iff.rfl

/-- Every row lies in the block of the point `row / 5000`: the twenty blocks tile the array. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  refine ⟨⟨(i 0).val / 5000, by show (i 0).val / 5000 < 20; omega⟩, flush3_3 _, ?_⟩
  rw [mem_blk]
  obtain ⟨e0, e1, e2, e3, e4, e5, e6, e7⟩ := idx_facts ⟨(i 0).val / 5000, by show (i 0).val / 5000 < 20; omega⟩
  have e6' : win3_3.index ⟨(i 0).val / 5000, by show (i 0).val / 5000 < 20; omega⟩ (0 : Fin 2) = (i 0).val / 5000 := e6
  intro a
  match a with
  | ⟨0, _⟩ => show win3_3.index _ (0 : Fin 2) * 5000 ≤ (i 0).val ∧ (i 0).val < win3_3.index _ (0 : Fin 2) * 5000 + 5000; omega
  | ⟨1, _⟩ => show win3_3.index _ (1 : Fin 2) * 64 ≤ (i 1).val ∧ (i 1).val < win3_3.index _ (1 : Fin 2) * 64 + 64; omega

/-- THE RESULT ARRAY after the call: `halfSum` of the three arrays as the call finds them. -/
theorem final (c : Dev nD) : (dat3 V c).arrAt 3 cfg3.N = halfSum (V c main_v60) (V c main_v61) (V c main_v47) :=
  (dat3 V c).arrAt_eq_of_cover 3 (halfSum (V c main_v60) (V c main_v61) (V c main_v47)) (fun t _ => flushed_eq V c t) cover

end Cert.KernelIdeal.Finalize

end
-- ==== Proof.Walk.lean ====
/-
  What the result buffer holds at the return, as a function of the seven arguments: the buffer contents are followed
  backwards through @main's segments.  The last call leaves `halfSum` of the second round's aggregate, the second bias
  as a row, and the first layer's output; the second round's aggregate is `aggregate` of the second product; that product
  is `rowsTimes` of the first layer's output and the second weight; the first layer's output is `rowBiasRelu` of the
  first round's aggregate and the first bias as a row; the first round's aggregate is `aggregate` of the first product,
  `rowsTimes` of the node features and the first weight.  The index arrays and the edge normalisation are computed once,
  before the first call, and no later segment writes them; no segment writes an argument.
-/
import proofs.«176561_j5025111736960_1_alg».proof.Proof.Gen.KernelIdeal.Frame
import proofs.«176561_j5025111736960_1_alg».proof.Proof.Rounds
import proofs.«176561_j5025111736960_1_alg».proof.Proof.RowsTimes
import proofs.«176561_j5025111736960_1_alg».proof.Proof.BiasRelu
import proofs.«176561_j5025111736960_1_alg».proof.Proof.Finalize
import Idealize.ShloMosaic.Lib.StableHlo.Run

set_option maxRecDepth 16384

noncomputable section

namespace Cert.KernelIdeal.Walk

open Cert.KernelIdeal Cert.KernelIdeal.Gen Cert.KernelIdeal.Rounds Cert.KernelIdeal.RowsTimes
open Cert.KernelIdeal.BiasRelu Cert.KernelIdeal.Finalize
open Idealize.ShloMosaic Idealize.ShloMosaic.TcCoe Idealize.SL.Sem Idealize.ShloMosaic.StableHlo
open Idealize.ShloMosaic.Pipeline (Dat)

/-! ## The host stretches, from any contents -/

/-- The stretch between the first product and the bias-and-clamp call computes the round's aggregate … -/
theorem stretch1_v45 (W : Valuation τ sig (Elt Ideal)) :
    StableHlo.after (hostOps1 (F := Ideal)) W (Proc.devRef .tc main_v45)
      = aggregate (W (Proc.devRef .tc main_v33)) (W (Proc.devRef .tc main_v5)) (W (Proc.devRef .tc main_v6)) (W (Proc.devRef .tc main_v32)) := by
  dsimp only [hostOps1]; after_results_simp; rfl
/-- … and the first bias as a row, … -/
theorem stretch1_v46 (W : Valuation τ sig (Elt Ideal)) :
    StableHlo.after (hostOps1 (F := Ideal)) W (Proc.devRef .tc main_v46) = asRow (W (Proc.devRef .tc main_arg4)) := by
  dsimp only [hostOps1]; after_results; rfl
/-- … and writes neither the index arrays, nor the normalisation, nor an argument. -/
theorem stretch1_v5 (W : Valuation τ sig (Elt Ideal)) :
    StableHlo.after (hostOps1 (F := Ideal)) W (Proc.devRef .tc main_v5) = W (Proc.devRef .tc main_v5) := by
  dsimp only [hostOps1]; after_results
theorem stretch1_v6 (W : Valuation τ sig (Elt Ideal)) :
    StableHlo.after (hostOps1 (F := Ideal)) W (Proc.devRef .tc main_v6) = W (Proc.devRef .tc main_v6) := by
  dsimp only [hostOps1]; after_results
theorem stretch1_v32 (W : Valuation τ sig (Elt Ideal)) :
    StableHlo.after (hostOps1 (F := Ideal)) W (Proc.devRef .tc main_v32) = W (Proc.devRef .tc main_v32) := by
  dsimp only [hostOps1]; after_results
theorem stretch1_arg5 (W : Valuation τ sig (Elt Ideal)) :
    StableHlo.after (hostOps1 (F := Ideal)) W (Proc.devRef .tc main_arg5) = W (Proc.devRef .tc main_arg5) := by
  dsimp only [hostOps1]; after_results
theorem stretch1_arg6 (W : Valuation τ sig (Elt Ideal)) :
    StableHlo.after (hostOps1 (F := Ideal)) W (Proc.devRef .tc main_arg6) = W (Proc.devRef .tc main_arg6) := by
  dsimp only [hostOps1]; after_results

/-- The stretch before the last call computes the second round's aggregate, the second bias as a row, and keeps the
    first layer's output. -/
theorem stretch3_v60 (W : Valuation τ sig (Elt Ideal)) :
    StableHlo.after (hostOps3 (F := Ideal)) W (Proc.devRef .tc main_v60)
      = aggregate (W (Proc.devRef .tc main_v48)) (W (Proc.devRef .tc main_v5)) (W (Proc.devRef .tc main_v6)) (W (Proc.devRef .tc main_v32)) := by
  dsimp only [hostOps3]; after_results_simp; rfl
theorem stretch3_v61 (W : Valuation τ sig (Elt Ideal)) :
    StableHlo.after (hostOps3 (F := Ideal)) W (Proc.devRef .tc main_v61) = asRow (W (Proc.devRef .tc main_arg6)) := by
  dsimp only [hostOps3]; after_results; rfl
theorem stretch3_v47 (W : Valuation τ sig (Elt Ideal)) :
    StableHlo.after (hostOps3 (F := Ideal)) W (Proc.devRef .tc main_v47) = W (Proc.devRef .tc main_v47) := by
  dsimp only [hostOps3]; after_results

/-- The three stretches before the first call write no argument. -/
theorem prefix_arg (W : Valuation τ sig (Elt Ideal)) :
    StableHlo.after (hostOps0_2 (F := Ideal)) (StableHlo.after hostOps0_1 (StableHlo.after hostOps0 W)) (Proc.devRef .tc main_arg0) = W (Proc.devRef .tc main_arg0)
    ∧ StableHlo.after (hostOps0_2 (F := Ideal)) (StableHlo.after hostOps0_1 (StableHlo.after hostOps0 W)) (Proc.devRef .tc main_arg3) = W (Proc.devRef .tc main_arg3)
    ∧ StableHlo.after (hostOps0_2 (F := Ideal)) (StableHlo.after hostOps0_1 (StableHlo.after hostOps0 W)) (Proc.devRef .tc main_arg4) = W (Proc.devRef .tc main_arg4)
    ∧ StableHlo.after (hostOps0_2 (F := Ideal)) (StableHlo.after hostOps0_1 (StableHlo.after hostOps0 W)) (Proc.devRef .tc main_arg5) = W (Proc.devRef .tc main_arg5)
    ∧ StableHlo.after (hostOps0_2 (F := Ideal)) (StableHlo.after hostOps0_1 (StableHlo.after hostOps0 W)) (Proc.devRef .tc main_arg6) = W (Proc.devRef .tc main_arg6) := by
  refine ⟨?_, ?_, ?_, ?_, ?_⟩ <;> (dsimp only [hostOps0_2, hostOps0_1, hostOps0]; after_results)

variable (m : (ℓ : Loc nD τ sig) → Buf (Elt Ideal) ℓ) (ρ : Dev nD → PrngReg) (c : Dev nD)

/-! ## The contents at each boundary -/

/-- The two index arrays and the edge normalisation, as the first call finds them (computed from the second and third
    arguments by the three opening stretches; nothing later writes them). -/
abbrev srcIdx := W3 m ρ c (Proc.devRef .tc main_v5)
abbrev dstIdx := W3 m ρ c (Proc.devRef .tc main_v6)
abbrev edgeNorm := W3 m ρ c (Proc.devRef .tc main_v32)

theorem w3_arg0 : W3 m ρ c (Proc.devRef .tc main_arg0) = (m ((c : Thread nD τ).loc main_arg0)) := (prefix_arg (W0 m ρ c)).1
theorem w3_arg3 : W3 m ρ c (Proc.devRef .tc main_arg3) = (m ((c : Thread nD τ).loc main_arg3)) := (prefix_arg (W0 m ρ c)).2.1
theorem w3_arg4 : W3 m ρ c (Proc.devRef .tc main_arg4) = (m ((c : Thread nD τ).loc main_arg4)) := (prefix_arg (W0 m ρ c)).2.2.1
theorem w3_arg5 : W3 m ρ c (Proc.devRef .tc main_arg5) = (m ((c : Thread nD τ).loc main_arg5)) := (prefix_arg (W0 m ρ c)).2.2.2.1
theorem w3_arg6 : W3 m ρ c (Proc.devRef .tc main_arg6) = (m ((c : Thread nD τ).loc main_arg6)) := (prefix_arg (W0 m ρ c)).2.2.2.2

/-- After the first call: the first product. -/
theorem w4_v33 : W4 m ρ c (Proc.devRef .tc main_v33) = rowsTimes (m ((c : Thread nD τ).loc main_arg0)) (m ((c : Thread nD τ).loc main_arg3)) := by
  refine (W4_arr m ρ c 2).trans ((RowsTimes.First.final (V3 m ρ) c).trans ?_)
  show rowsTimes (W3 m ρ c (Proc.devRef .tc main_arg0)) (W3 m ρ c (Proc.devRef .tc main_arg3)) = _
  rw [w3_arg0, w3_arg3]

/-- The first layer's output, as the bias-and-clamp call leaves it. -/
def layer1 : S100000x64.Idx → EReal :=
  rowBiasRelu (aggregate (rowsTimes (m ((c : Thread nD τ).loc main_arg0)) (m ((c : Thread nD τ).loc main_arg3))) (srcIdx m ρ c) (dstIdx m ρ c) (edgeNorm m ρ c)) (asRow (m ((c : Thread nD τ).loc main_arg4)))

theorem w5_v45 : W5 m ρ c (Proc.devRef .tc main_v45)
    = aggregate (rowsTimes (m ((c : Thread nD τ).loc main_arg0)) (m ((c : Thread nD τ).loc main_arg3))) (srcIdx m ρ c) (dstIdx m ρ c) (edgeNorm m ρ c) := by
  refine (stretch1_v45 (W4 m ρ c)).trans ?_
  rw [w4_v33, W4_of_ne m ρ c main_v5 (by decide), W4_of_ne m ρ c main_v6 (by decide), W4_of_ne m ρ c main_v32 (by decide)]

theorem w5_v46 : W5 m ρ c (Proc.devRef .tc main_v46) = asRow (m ((c : Thread nD τ).loc main_arg4)) := by
  refine (stretch1_v46 (W4 m ρ c)).trans ?_
  rw [W4_of_ne m ρ c main_arg4 (by decide), w3_arg4]

theorem w6_v47 : W6 m ρ c (Proc.devRef .tc main_v47) = layer1 m ρ c := by
  refine (W6_arr m ρ c 2).trans ((BiasRelu.final (V5 m ρ) c).trans ?_)
  show rowBiasRelu (W5 m ρ c (Proc.devRef .tc main_v45)) (W5 m ρ c (Proc.devRef .tc main_v46)) = _
  rw [w5_v45, w5_v46]
  rfl

/-- A buffer that neither the first call, nor the stretch after it, nor the bias-and-clamp call writes. -/
theorem w6_keep (b : Ref sig .tc) (h0 : ∀ w, Pipeline.arrRef spec0 w ≠ b) (h1 : ∀ w, Pipeline.arrRef spec1 w ≠ b)
    (hs : ∀ W : Valuation τ sig (Elt Ideal), StableHlo.after (hostOps1 (F := Ideal)) W (Proc.devRef .tc b) = W (Proc.devRef .tc b)) :
    W6 m ρ c (Proc.devRef .tc b) = W3 m ρ c (Proc.devRef .tc b) :=
  (W6_of_ne m ρ c b h1).trans ((hs (W4 m ρ c)).trans (W4_of_ne m ρ c b h0))

theorem w6_v5 : W6 m ρ c (Proc.devRef .tc main_v5) = srcIdx m ρ c := w6_keep m ρ c main_v5 (by decide) (by decide) stretch1_v5
theorem w6_v6 : W6 m ρ c (Proc.devRef .tc main_v6) = dstIdx m ρ c := w6_keep m ρ c main_v6 (by decide) (by decide) stretch1_v6
theorem w6_v32 : W6 m ρ c (Proc.devRef .tc main_v32) = edgeNorm m ρ c := w6_keep m ρ c main_v32 (by decide) (by decide) stretch1_v32
theorem w6_arg5 : W6 m ρ c (Proc.devRef .tc main_arg5) = (m ((c : Thread nD τ).loc main_arg5)) := (w6_keep m ρ c main_arg5 (by decide) (by decide) stretch1_arg5).trans (w3_arg5 m ρ c)
theorem w6_arg6 : W6 m ρ c (Proc.devRef .tc main_arg6) = (m ((c : Thread nD τ).loc main_arg6)) := (w6_keep m ρ c main_arg6 (by decide) (by decide) stretch1_arg6).trans (w3_arg6 m ρ c)

/-- After the second product: the product of the first layer's output with the second weight; the first layer's
    output itself is an input of that call and stays. -/
theorem w7_v48 : W7 m ρ c (Proc.devRef .tc main_v48) = rowsTimes (layer1 m ρ c) (m ((c : Thread nD τ).loc main_arg5)) := by
  refine (W7_arr m ρ c 2).trans ((RowsTimes.Second.final (V6 m ρ) c).trans ?_)
  show rowsTimes (W6 m ρ c (Proc.devRef .tc main_v47)) (W6 m ρ c (Proc.devRef .tc main_arg5)) = _
  rw [w6_v47, w6_arg5]

theorem w7_v47 : W7 m ρ c (Proc.devRef .tc main_v47) = layer1 m ρ c :=
  (W7_arr m ρ c 0).trans (((dat2 (V6 m ρ) c).arrAt_in 0 rfl _).trans ((A_eq2 (V6 m ρ) c 0).trans (w6_v47 m ρ c)))

theorem w8_v60 : W8 m ρ c (Proc.devRef .tc main_v60)
    = aggregate (rowsTimes (layer1 m ρ c) (m ((c : Thread nD τ).loc main_arg5))) (srcIdx m ρ c) (dstIdx m ρ c) (edgeNorm m ρ c) := by
  refine (stretch3_v60 (W7 m ρ c)).trans ?_
  rw [w7_v48, W7_of_ne m ρ c main_v5 (by decide), W7_of_ne m ρ c main_v6 (by decide), W7_of_ne m ρ c main_v32 (by decide),
    w6_v5, w6_v6, w6_v32]

theorem w8_v61 : W8 m ρ c (Proc.devRef .tc main_v61) = asRow (m ((c : Thread nD τ).loc main_arg6)) := by
  refine (stretch3_v61 (W7 m ρ c)).trans ?_
  rw [W7_of_ne m ρ c main_arg6 (by decide), w6_arg6]

theorem w8_v47 : W8 m ρ c (Proc.devRef .tc main_v47) = layer1 m ρ c := (stretch3_v47 (W7 m ρ c)).trans (w7_v47 m ρ c)

/-- THE RESULT at the return, as a function of the arguments. -/
theorem w9_result : W9 m ρ c (Proc.devRef .tc main_v62)
    = halfSum (aggregate (rowsTimes (layer1 m ρ c) (m ((c : Thread nD τ).loc main_arg5))) (srcIdx m ρ c) (dstIdx m ρ c) (edgeNorm m ρ c))
        (asRow (m ((c : Thread nD τ).loc main_arg6))) (layer1 m ρ c) := by
  refine (W9_arr m ρ c 3).trans ((Finalize.final (V8 m ρ) c).trans ?_)
  show halfSum (W8 m ρ c (Proc.devRef .tc main_v60)) (W8 m ρ c (Proc.devRef .tc main_v61)) (W8 m ρ c (Proc.devRef .tc main_v47)) = _
  rw [w8_v60, w8_v61, w8_v47]

end Cert.KernelIdeal.Walk

end
-- ==== Proof.EdgeNorm.lean ====
/-
  The per-edge normalisation, as the host computes it before the first Pallas call, as a function of the inverse
  square roots of the degrees `dis`, the source and destination index arrays and the edge weights (self-loops
  included): `dis` gathered at the (wrapped) sources, times the weight, times `dis` gathered at the (wrapped)
  destinations, as a column.  And the `where` that makes `dis`: the inverse square root where the degree is positive,
  a zero splat elsewhere.  Both programs apply exactly these operations; the functions are never opened.
-/
import proofs.«176561_j5025111736960_1_alg».proof.Proof.Gen.KernelIdeal

noncomputable section

namespace Cert.KernelIdeal.Rounds

open Cert.KernelIdeal Cert.KernelIdeal.Facts₀ Idealize.ShloMosaic

variable {F : FTy → Type} [FloatOps F]

/-- `where (p, a, z)` with the scalar `z` converted to itself and splat over the nodes. -/
def whereSelect (p : (⟨S100000, .i1⟩ : BufTy).Contents (Elt F)) (a : (⟨S100000, .f32⟩ : BufTy).Contents (Elt F))
    (z : (⟨S_, .f32⟩ : BufTy).Contents (Elt F)) : (⟨S100000, .f32⟩ : BufTy).Contents (Elt F) :=
  select p a (broadcastInDim S100000 ![] bcast_S_S100000 (id z))

/-- `dis[s] · w · dis[d]` as a column, a negative index moved up by the number of nodes. -/
def edgeNormOf (dis : (⟨S100000, .f32⟩ : BufTy).Contents (Elt F)) (s d : (⟨S1300000, .i32⟩ : BufTy).Contents (Elt F))
    (w : (⟨S1300000, .f32⟩ : BufTy).Contents (Elt F)) : (⟨S1300000x1, .f32⟩ : BufTy).Contents (Elt F) :=
  broadcastInDim S1300000x1 ![0] bcast_S1300000_S1300000x1_0
    (mulf
      (mulf
        (Host.gather gather_S100000_S1300000x1_S1300000_n_0_n_n_0_1_1 dis
          (broadcastInDim S1300000x1 ![0] bcast_S1300000_S1300000x1_0
            (select (cmpi .slt s (broadcastInDim S1300000 ![] bcast_S_S1300000 (constantI S_ 32 0#32)))
              (addi s (broadcastInDim S1300000 ![] bcast_S_S1300000 (constantI S_ 32 100000#32))) s)))
        w)
      (Host.gather gather_S100000_S1300000x1_S1300000_n_0_n_n_0_1_1 dis
        (broadcastInDim S1300000x1 ![0] bcast_S1300000_S1300000x1_0
          (select (cmpi .slt d (broadcastInDim S1300000 ![] bcast_S_S1300000 (constantI S_ 32 0#32)))
            (addi d (broadcastInDim S1300000 ![] bcast_S_S1300000 (constantI S_ 32 100000#32))) d))))

end Cert.KernelIdeal.Rounds

end
-- ==== Proof.Bridge.lean ====
/-
  The idealized kernel's result IS the idealized reference's, as functions of the seven arguments.
  The reference is read one operation at a time (the generated stages `val_main_vN`).  Its two matrix products are the
  host's `dot_general`, at the ideal instance the sum over the contracted axis — the kernel's blockwise products are
  restrictions of the same sums (`rowsTimes`).  Its bias additions broadcast the bias vector over the rows where the
  kernel reshapes it to one row and broadcasts inside the body: both read the bias at the entry's column.  Its `relu`
  is the maximum with a zero splat, the kernel's the maximum with a zero scalar splat.  Its two rounds of gather, scale
  and scatter-add are, operation for operation, the kernel's host stretches (`aggregate`), applied to index arrays and
  an edge normalisation that the reference computes twice and the kernel once, by the same operations of the second and
  third arguments.  No law of arithmetic beyond reading both sides at an index is used, so finiteness of the inputs
  is not needed.
-/
import proofs.«176561_j5025111736960_1_alg».proof.Proof.Gen.ReferenceIdeal.Read
import proofs.«176561_j5025111736960_1_alg».proof.Proof.Walk
import proofs.«176561_j5025111736960_1_alg».proof.Proof.EdgeNorm
import Idealize.ShloMosaic.Lib.ValueLayout

set_option maxRecDepth 16384

noncomputable section

namespace Cert.Bridge

open Idealize.ShloMosaic Idealize.ShloMosaic.TcCoe Idealize.SL.Sem Idealize.ShloMosaic.StableHlo
open Idealize.ShloMosaic.ValueIdx
open Cert.ReferenceIdeal.Read
open Cert.KernelIdeal.Rounds (aggregate asRow)
open Cert.KernelIdeal.RowsTimes (rowsTimes pairSum)
open Cert.KernelIdeal.BiasRelu (rowBiasRelu)
open Cert.KernelIdeal.Finalize (halfSum)

/-! ## The reference's stages in the kernel's vocabulary -/

section Reference

open Cert.ReferenceIdeal

variable (x0 : (⟨S100000x64, .f32⟩ : BufTy).Contents (Elt Ideal)) (x1 : (⟨S2x1200000, .i32⟩ : BufTy).Contents (Elt Ideal))
  (x2 : (⟨S1200000, .f32⟩ : BufTy).Contents (Elt Ideal)) (x3 : (⟨S64x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal))

/-- The host's `dot_general` of a `[100000, 64]` array with a `[64, 64]` one is the entrywise sum of products. -/
theorem product_eq (x : (⟨S100000x64, .f32⟩ : BufTy).Contents (Elt Ideal)) (w : (⟨S64x64, .f32⟩ : BufTy).Contents (Elt Ideal)) :
    val_main_v32 (F := Ideal) x w = rowsTimes x w := by
  funext i
  rw [val_main_v32_apply]
  unfold rowsTimes pairSum
  refine Finset.sum_congr rfl fun k _ => ?_
  have el : lidx_main_v32 i k = ix2 (⟨(i 0).val, (i 0).isLt⟩ : Fin 100000) k :=
    funext fun a => match a with | ⟨0, _⟩ => rfl | ⟨1, _⟩ => rfl
  have er : ridx_main_v32 i k = ix2 k (⟨(i 1).val, (i 1).isLt⟩ : Fin 64) :=
    funext fun a => match a with | ⟨0, _⟩ => rfl | ⟨1, _⟩ => rfl
  rw [el, er]

/-- The second product is the same operation, of the first layer's output and the second weight. -/
theorem product2_eq : val_main_v78 (F := Ideal) x0 x1 x2 x3 x4 x5 = val_main_v32 (F := Ideal) (val_main_v49 (F := Ideal) x0 x1 x2 x3 x4) x5 := rfl

/-- The first round's aggregate: the kernel's host stretch, operation for operation. -/
theorem round1_eq : val_main_v45 (F := Ideal) x0 x1 x2 x3
    = aggregate (val_main_v32 (F := Ideal) x0 x3) (val_main_v5 (F := Ideal) x1) (val_main_v6 (F := Ideal) x1) (val_main_v33 (F := Ideal) x1 x2) := rfl

/-- The second round's aggregate: the same, over index arrays and a normalisation recomputed by the same operations. -/
theorem round2_eq : val_main_v91 (F := Ideal) x0 x1 x2 x3 x4 x5
    = aggregate (val_main_v78 (F := Ideal) x0 x1 x2 x3 x4 x5) (val_main_v5 (F := Ideal) x1) (val_main_v6 (F := Ideal) x1) (val_main_v33 (F := Ideal) x1 x2) := rfl

/-- The first layer's output: bias added along the rows, clamped at zero. -/
theorem layer1_eq : val_main_v49 (F := Ideal) x0 x1 x2 x3 x4 = rowBiasRelu (val_main_v45 (F := Ideal) x0 x1 x2 x3) (asRow x4) := by
  funext i
  rw [val_main_v49_apply, val_main_v48_apply, val_main_v47_apply, val_main_v46_apply, val_main_call1_v0_apply, val_main_call1_cst_apply]
  unfold rowBiasRelu asRow
  rw [shapeCast_a_1a_apply]
  have e : idx_main_v46 (idx_main_v47 i) = ix1 (⟨(i 1).val, (i 1).isLt⟩ : Fin 64) := funext fun a => match a with | ⟨0, _⟩ => rfl
  rw [e]

/-- The reference's result: the two layers' outputs averaged. -/
theorem out_eq : val_main_v98 (F := Ideal) x0 x1 x2 x3 x4 x5 x6
    = halfSum (val_main_v91 (F := Ideal) x0 x1 x2 x3 x4 x5) (asRow x6) (val_main_v49 (F := Ideal) x0 x1 x2 x3 x4) := by
  funext i
  rw [val_main_v98_apply, val_main_v96_apply, val_main_v95_apply, val_main_v94_apply, val_main_v93_apply, val_main_v92_apply,
    val_main_call3_v0_apply, val_main_call3_cst_apply, val_main_v97_apply, val_main_cst_20_apply]
  unfold halfSum asRow
  rw [shapeCast_a_1a_apply]
  have e : idx_main_v92 (idx_main_v93 i) = ix1 (⟨(i 1).val, (i 1).isLt⟩ : Fin 64) := funext fun a => match a with | ⟨0, _⟩ => rfl
  rw [e]

end Reference

/-! ## The kernel's index arrays and edge normalisation are the reference's -/

section Prefix

open Cert.KernelIdeal Cert.KernelIdeal.Gen
open Cert.KernelIdeal.Rounds (whereSelect edgeNormOf)

variable (x1 : (⟨Cert.ReferenceIdeal.S2x1200000, .i32⟩ : BufTy).Contents (Elt Ideal))
  (x2 : (⟨Cert.ReferenceIdeal.S1200000, .f32⟩ : BufTy).Contents (Elt Ideal))

/-- The reference's degree normalisation and edge normalisation, in the kernel's vocabulary. -/
theorem ref_dis : val_main_v15 (F := Ideal) x1 x2
    = whereSelect (val_main_v13 (F := Ideal) x1 x2) (val_main_v14 (F := Ideal) x1 x2) (val_main_cst_2 (F := Ideal)) := rfl
theorem ref_norm : val_main_v33 (F := Ideal) x1 x2
    = edgeNormOf (val_main_v15 (F := Ideal) x1 x2) (val_main_v5 (F := Ideal) x1) (val_main_v6 (F := Ideal) x1) (val_main_v8 (F := Ideal) x2) := rfl

variable (W : Valuation τ sig (Elt Ideal))

/-! The first stretch (slices of the edge list, self-loops appended, degrees, their inverse square roots), from any
    contents: each buffer it leaves is the reference's stage of the second and third arguments. -/
theorem first_v5 : StableHlo.after (hostOps0 (F := Ideal)) W (Proc.devRef .tc main_v5)
    = val_main_v5 (F := Ideal) (W (Proc.devRef .tc main_arg1)) := by
  dsimp only [hostOps0]; after_results_simp; rfl
theorem first_v6 : StableHlo.after (hostOps0 (F := Ideal)) W (Proc.devRef .tc main_v6)
    = val_main_v6 (F := Ideal) (W (Proc.devRef .tc main_arg1)) := by
  dsimp only [hostOps0]; after_results_simp; rfl
theorem first_v8 : StableHlo.after (hostOps0 (F := Ideal)) W (Proc.devRef .tc main_v8)
    = val_main_v8 (F := Ideal) (W (Proc.devRef .tc main_arg2)) := by
  dsimp only [hostOps0]; after_results_simp; rfl
theorem first_v13 : StableHlo.after (hostOps0 (F := Ideal)) W (Proc.devRef .tc main_v13)
    = val_main_v13 (F := Ideal) (W (Proc.devRef .tc main_arg1)) (W (Proc.devRef .tc main_arg2)) := by
  dsimp only [hostOps0]; after_results_simp; rfl
theorem first_v14 : StableHlo.after (hostOps0 (F := Ideal)) W (Proc.devRef .tc main_v14)
    = val_main_v14 (F := Ideal) (W (Proc.devRef .tc main_arg1)) (W (Proc.devRef .tc main_arg2)) := by
  dsimp only [hostOps0]; after_results_simp; rfl
theorem first_cst_2 : StableHlo.after (hostOps0 (F := Ideal)) W (Proc.devRef .tc main_cst_2) = val_main_cst_2 (F := Ideal) := by
  dsimp only [hostOps0]; after_results_simp; rfl

/-! The second stretch (the `where`) and what it keeps. -/
theorem second_v15 : StableHlo.after (hostOps0_1 (F := Ideal)) W (Proc.devRef .tc main_v15)
    = whereSelect (W (Proc.devRef .tc main_v13)) (W (Proc.devRef .tc main_v14)) (W (Proc.devRef .tc main_cst_2)) := by
  dsimp only [hostOps0_1]; after_results; rfl
theorem second_v5 : StableHlo.after (hostOps0_1 (F := Ideal)) W (Proc.devRef .tc main_v5) = W (Proc.devRef .tc main_v5) := by
  dsimp only [hostOps0_1]; after_results
theorem second_v6 : StableHlo.after (hostOps0_1 (F := Ideal)) W (Proc.devRef .tc main_v6) = W (Proc.devRef .tc main_v6) := by
  dsimp only [hostOps0_1]; after_results
theorem second_v8 : StableHlo.after (hostOps0_1 (F := Ideal)) W (Proc.devRef .tc main_v8) = W (Proc.devRef .tc main_v8) := by
  dsimp only [hostOps0_1]; after_results

/-! The third stretch (the edge normalisation) and what it keeps. -/
theorem third_v32 : StableHlo.after (hostOps0_2 (F := Ideal)) W (Proc.devRef .tc main_v32)
    = edgeNormOf (W (Proc.devRef .tc main_v15)) (W (Proc.devRef .tc main_v5)) (W (Proc.devRef .tc main_v6)) (W (Proc.devRef .tc main_v8)) := by
  dsimp only [hostOps0_2]; after_results_simp; rfl
theorem third_v5 : StableHlo.after (hostOps0_2 (F := Ideal)) W (Proc.devRef .tc main_v5) = W (Proc.devRef .tc main_v5) := by
  dsimp only [hostOps0_2]; after_results
theorem third_v6 : StableHlo.after (hostOps0_2 (F := Ideal)) W (Proc.devRef .tc main_v6) = W (Proc.devRef .tc main_v6) := by
  dsimp only [hostOps0_2]; after_results

end Prefix

section Kernel

open Cert.KernelIdeal Cert.KernelIdeal.Gen Cert.KernelIdeal.Walk

variable (m : (ℓ : Loc nD τ sig) → Buf (Elt Ideal) ℓ) (ρ : Dev nD → PrngReg) (c : Dev nD)

theorem src_eq : srcIdx m ρ c = val_main_v5 (F := Ideal) (m ((c : Thread nD τ).loc main_arg1)) :=
  (third_v5 (W2 m ρ c)).trans ((second_v5 (W1 m ρ c)).trans (first_v5 (W0 m ρ c)))

theorem dst_eq : dstIdx m ρ c = val_main_v6 (F := Ideal) (m ((c : Thread nD τ).loc main_arg1)) :=
  (third_v6 (W2 m ρ c)).trans ((second_v6 (W1 m ρ c)).trans (first_v6 (W0 m ρ c)))

theorem norm_eq : edgeNorm m ρ c = val_main_v33 (F := Ideal) (m ((c : Thread nD τ).loc main_arg1)) (m ((c : Thread nD τ).loc main_arg2)) := by
  have h5 : W2 m ρ c (Proc.devRef .tc main_v5) = val_main_v5 (F := Ideal) (m ((c : Thread nD τ).loc main_arg1)) :=
    (second_v5 (W1 m ρ c)).trans (first_v5 (W0 m ρ c))
  have h6 : W2 m ρ c (Proc.devRef .tc main_v6) = val_main_v6 (F := Ideal) (m ((c : Thread nD τ).loc main_arg1)) :=
    (second_v6 (W1 m ρ c)).trans (first_v6 (W0 m ρ c))
  have h8 : W2 m ρ c (Proc.devRef .tc main_v8) = val_main_v8 (F := Ideal) (m ((c : Thread nD τ).loc main_arg2)) :=
    (second_v8 (W1 m ρ c)).trans (first_v8 (W0 m ρ c))
  have h13 : W1 m ρ c (Proc.devRef .tc main_v13) = val_main_v13 (F := Ideal) (m ((c : Thread nD τ).loc main_arg1)) (m ((c : Thread nD τ).loc main_arg2)) := first_v13 (W0 m ρ c)
  have h14 : W1 m ρ c (Proc.devRef .tc main_v14) = val_main_v14 (F := Ideal) (m ((c : Thread nD τ).loc main_arg1)) (m ((c : Thread nD τ).loc main_arg2)) := first_v14 (W0 m ρ c)
  have hz : W1 m ρ c (Proc.devRef .tc main_cst_2) = val_main_cst_2 (F := Ideal) := first_cst_2 (W0 m ρ c)
  have h15 : W2 m ρ c (Proc.devRef .tc main_v15) = val_main_v15 (F := Ideal) (m ((c : Thread nD τ).loc main_arg1)) (m ((c : Thread nD τ).loc main_arg2)) := by
    refine (second_v15 (W1 m ρ c)).trans ?_
    rw [h13, h14, hz, ref_dis]
  refine (third_v32 (W2 m ρ c)).trans ?_
  rw [h15, h5, h6, h8, ref_norm]

/-- The first layer's output in the kernel is the reference's. -/
theorem kernel_layer1 : layer1 m ρ c
    = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  unfold layer1
  rw [src_eq, dst_eq, norm_eq, layer1_eq, round1_eq, product_eq]

/-- THE KERNEL'S RESULT at the return is the reference's composed value of the same arguments. -/
theorem kernel_result : W9 m ρ c (Proc.devRef .tc main_v62)
    = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [w9_result, kernel_layer1, src_eq, dst_eq, norm_eq, out_eq, round2_eq, product2_eq, product_eq]

end Kernel

end Cert.Bridge

end
-- ==== Proof.lean ====
/-
  A two-layer graph convolution with self-loops, symmetric normalisation, relu after each layer and the average of
  the two layers' outputs: the Pallas kernel program against its jnp reference, on the extended reals.

  Both programs compute, from the node features `x`, the edge list, the edge weights and two weight matrices and biases:
  the degree of every node (edge weights scatter-added at the destinations), its inverse square root where positive,
  the per-edge normalisation, then per layer `relu (scatter-add (norm · gather (h @ W)) + b)`, and `(x1 + x2) · ½`.
  The kernel does the two products `h @ W`, the first `relu (· + b)` and the final `(x1 + relu (· + b)) · ½` in four
  Pallas calls over twenty blocks of 5000 rows, narrowing the products' operands to bf16; everything else is host code,
  the same operations as the reference's.  On the extended reals the narrowing is the identity, a blockwise product
  into a zero accumulator is the whole product restricted to the block, and the blocks tile the rows; so each call's
  result array is one whole-array function of its operands, and composing these with the host stretches gives the
  reference's composed value, stage for stage.  The ideal pass rewrote nothing, so the kernel's idealization is its own
  text.  The three frames are the generated ones (the reference's is its generated run with the result dropped).
-/
import proofs.«176561_j5025111736960_1_alg».proof.Defs
import proofs.«176561_j5025111736960_1_alg».proof.Proof.Gen.Kernel
import proofs.«176561_j5025111736960_1_alg».proof.Proof.Gen.Kernel.Skeleton
import proofs.«176561_j5025111736960_1_alg».proof.Proof.Gen.Kernel.Launch
import proofs.«176561_j5025111736960_1_alg».proof.Proof.Gen.Kernel.Points
import proofs.«176561_j5025111736960_1_alg».proof.Proof.Gen.Kernel.Frame
import proofs.«176561_j5025111736960_1_alg».proof.Proof.Gen.KernelIdeal
import proofs.«176561_j5025111736960_1_alg».proof.Proof.Gen.KernelIdeal.Skeleton
import proofs.«176561_j5025111736960_1_alg».proof.Proof.Gen.KernelIdeal.Launch
import proofs.«176561_j5025111736960_1_alg».proof.Proof.Gen.KernelIdeal.Points
import proofs.«176561_j5025111736960_1_alg».proof.Proof.Gen.KernelIdeal.Frame
import proofs.«176561_j5025111736960_1_alg».proof.Proof.Gen.ReferenceIdeal
import proofs.«176561_j5025111736960_1_alg».proof.Proof.Gen.ReferenceIdeal.Run
import proofs.«176561_j5025111736960_1_alg».proof.Proof.Gen.ReferenceIdeal.Read
import proofs.«176561_j5025111736960_1_alg».proof.Proof.Gen.Pre_finite_inputs
import proofs.«176561_j5025111736960_1_alg».proof.Proof.KernelRun
import proofs.«176561_j5025111736960_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end, the kernel's result buffer at what the last
    boundary's contents hold there, which is the reference's composed value of the same arguments. -/
theorem algebraic : Cert.algebraic_KernelIdeal_ReferenceIdeal := by
  intro m ρ m' ρ' _ hagree
  refine ⟨fun c => Cert.KernelIdeal.Gen.W9 m ρ c (Proc.devRef .tc Cert.KernelIdeal.main_v62), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v98_eq, (hagree c).1, (hagree c).2.1, (hagree c).2.2.1, (hagree c).2.2.2.1,
    (hagree c).2.2.2.2.1, (hagree c).2.2.2.2.2.1, (hagree c).2.2.2.2.2.2]
  exact (Cert.Bridge.kernel_result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
